-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : IVec S4096x2048 32) (main_arg1 : FVec F S1024x2048 .f32) : IVec S_ 1 :=
  let main_v0 : FVec F S1024x2048 .f32 := Host.absf main_arg1
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Kernel.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .i32⟩
  | .hbm, ⟨1, _⟩ => ⟨S1024x2048, .f32⟩
  | .hbm, ⟨2, _⟩ => ⟨S4096x1024, .f32⟩
  | .local _ .vmem, ⟨0, _⟩ => ⟨S512x2048, .i32⟩
  | .local _ .vmem, ⟨1, _⟩ => ⟨S512x2048, .i32⟩
  | .local _ .vmem, ⟨2, _⟩ => ⟨S1024x2048, .f32⟩
  | .local _ .vmem, ⟨3, _⟩ => ⟨S512x1024, .f32⟩
  | .local _ .vmem, ⟨4, _⟩ => ⟨S512x1024, .f32⟩
  | _, _ => ⟨S4096x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x2048_S512x2048_0_0 : ∀ a, (![0, 0] : Fin 2 → Nat) a + S512x2048.size a ≤ S512x2048.size a
  h_S512x2048 : 0 < S512x2048.numel
  inb_S1024x2048_S1024x2048_0_0 : ∀ a, (![0, 0] : Fin 2 → Nat) a + S1024x2048.size a ≤ S1024x2048.size a
  h_S1024x2048 : 0 < S1024x2048.numel
  reduces_S512x2048_S512 : S512x2048.Reduces [1] S512
  shapeCasts_S512_S512x1 : S512.ShapeCasts S512x1
  reduces_S1024x2048_S1024 : S1024x2048.Reduces [1] S1024
  shapeCasts_S1024_S1x1024 : S1024.ShapeCasts S1x1024
  bitsLt_bf16_f32 : FTy.bits .bf16 < FTy.bits .f32
  broadcasts_S512x1_S512x1024 : S512x1.Broadcasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .i32 = 32 ∨ (Rect.block (s := S4096x2048) S512x2048.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S1024x2048.size a
  hwx0_1 : ∀ i : grid0.Coords, EltTy.bits .f32 = 32 ∨ (Rect.block (s := S1024x2048) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .i32⟩
  | .hbm, ⟨1, _⟩ => ⟨S1024x2048, .f32⟩
  | .hbm, ⟨2, _⟩ => ⟨S4096x2048, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | _, _ => ⟨S4096x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  reducesTo_S1024x2048_S1024_d1 : S1024x2048.ReducesTo [1] S1024
  bcast_S1024_S1x1024_1 : S1024.BroadcastsInDim S1x1024 (![1] : Fin 1 → Fin S1x1024.rank)
  bcast_S4096x1_S4096x1024_0_1 : S4096x1.BroadcastsInDim S4096x1024 (![0, 1] : Fin 2 → Fin S4096x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x2048_S1024x2048_S4096x1024_1_1_0_0_n_n_wf : DotDims.WF S4096x2048 S1024x2048 S4096x1024 [1] [1] [0] [0] [] []

variable [Facts₀]

def dot_S4096x2048_S1024x2048_S4096x1024_1_1_0_0_n_n : DotDims S4096x2048 S1024x2048 S4096x1024 where
  lhsContracting := [1]
  rhsContracting := [1]
  lhsNonContracting := [0]
  rhsNonContracting := [0]
  lhsBatch := []
  rhsBatch := []
  wf := dot_S4096x2048_S1024x2048_S4096x1024_1_1_0_0_n_n_wf

class Facts : Prop extends Facts₀ where

variable [Facts]
-- ==== Proof.Spec.lean ====
/-
  The normalized Hamming score, as one function of the two argument arrays.

  For a row x of integers and a row r of extended reals, both of length 2048, write
      sx = Σ_k x_k,   sr = Σ_k r_k,   d = Σ_k x_k · r_k.
  For entries in {0, 1} the number of places where the rows differ is sx + sr − 2·d; the score is that number
  centred by 1024 (half the length) and divided by a fixed positive scale:
      score = ((sx + sr) − 2·d − 1024) / s.
  The three constants are kept as the single-precision words both programs spell (2, 1024, and the scale
  s, the word nearest to half the square root of 2048); nothing below evaluates them. The array of scores of B rows
  of integers against D rows of extended reals has the score of row b against row d at (b, d).
-/
import Idealize.ShloMosaic.PureOps.Ideal
import Idealize.ShloMosaic.Lib.ValueIdx

noncomputable section

open scoped BigOperators

namespace Cert.Hamming

open Idealize.ShloMosaic Idealize.ShloMosaic.ValueIdx

/-- The score from the two row sums and the inner product: ((sx + sr) − 2·d − 1024) / s. -/
def score (sx sr d : EReal) : EReal :=
  Ideal.div (sx + sr - Ideal.ofBits .f32 0x40000000#32 * d - Ideal.ofBits .f32 0x44800000#32)
    (Ideal.ofBits .f32 0x41B504F3#32)

/-- An integer word as an extended real: the integer it denotes, read signed. -/
abbrev asReal (w : BitVec 32) : EReal := FloatOps.sitofp (F := Ideal) .f32 w

/-- The scores of the B rows of `x` against the D rows of `r`: at (b, d), the score of row b of `x` and row d of `r`. -/
def scores {B D : Nat} (x : (⟨2, ![B, 2048]⟩ : Shape).Idx → BitVec 32) (r : (⟨2, ![D, 2048]⟩ : Shape).Idx → EReal) :
    (⟨2, ![B, D]⟩ : Shape).Idx → EReal := fun i =>
  score (∑ k : Fin 2048, asReal (x (ix2 (i 0) k))) (∑ k : Fin 2048, r (ix2 (i 1) k))
    (∑ k : Fin 2048, asReal (x (ix2 (i 0) k)) * r (ix2 (i 1) k))

/-- The scores at an index written by coordinates. -/
theorem scores_apply {B D : Nat} (x : (⟨2, ![B, 2048]⟩ : Shape).Idx → BitVec 32) (r : (⟨2, ![D, 2048]⟩ : Shape).Idx → EReal)
    (b : Fin B) (d : Fin D) :
    scores x r (ix2 b d) = score (∑ k : Fin 2048, asReal (x (ix2 b k))) (∑ k : Fin 2048, r (ix2 d k))
      (∑ k : Fin 2048, asReal (x (ix2 b k)) * r (ix2 d k)) := rfl

/-- A score depends on one row of each array only: where row `i 0` of `x` is row `i' 0` of `x'` and row `i 1` of `r`
    is row `i' 1` of `r'`, the score of `x`, `r` at `i` is the score of `x'`, `r'` at `i'`. -/
theorem scores_eq_of_rows {B D B' D' : Nat}
    (x : (⟨2, ![B, 2048]⟩ : Shape).Idx → BitVec 32) (r : (⟨2, ![D, 2048]⟩ : Shape).Idx → EReal)
    (x' : (⟨2, ![B', 2048]⟩ : Shape).Idx → BitVec 32) (r' : (⟨2, ![D', 2048]⟩ : Shape).Idx → EReal)
    (i : (⟨2, ![B, D]⟩ : Shape).Idx) (i' : (⟨2, ![B', D']⟩ : Shape).Idx)
    (hx : ∀ k : Fin 2048, x (ix2 (i 0) k) = x' (ix2 (i' 0) k))
    (hr : ∀ k : Fin 2048, r (ix2 (i 1) k) = r' (ix2 (i' 1) k)) :
    scores x r i = scores x' r' i' := by
  unfold scores
  simp only [hx, hr]

end Cert.Hamming

end
-- ==== Proof.RefIsSpec.lean ====
/-
  The reference computes the scores.

  Read one operation at a time, entry (b, d) of the reference's result is
      (((0 + Σ_k x(b,k)) + (0 + Σ_k r(d,k))) − 2 · Σ_k x(b,k)·r(d,k) − 1024) / s,
  the integers converted exactly and the two row sums started from zero. The row sums reach the entry through
  a column and a row spread over the whole matrix, so each is read at the entry's own row, respectively column;
  the matrix product contracts the last axes of both operands. Adding zero changes nothing on the extended reals,
  so this is the score of row b of x against row d of r.
-/
import proofs.«110299_j45251775430700_1_alg».proof.Proof.Gen.ReferenceIdeal.Read
import proofs.«110299_j45251775430700_1_alg».proof.Proof.Spec
import Idealize.ShloMosaic.PureOps.Ideal.Laws

noncomputable section

open scoped BigOperators

namespace Cert.Hamming.Reference

open Cert.ReferenceIdeal Cert.ReferenceIdeal.Read Idealize.ShloMosaic Idealize.ShloMosaic.ValueIdx

/-- The sum of x's rows, spread as a column over the matrix, is read at the entry's row. -/
theorem row_of_x (i : S4096x1024.Idx) (k : Fin 2048) :
    idx_main_v2 (idx_main_v3 (idx_main_v6 i)) k = ix2 (i 0) k :=
  funext fun a => Fin.ext (by match a with | ⟨0, _⟩ => rfl | ⟨1, _⟩ => rfl)

/-- The sum of r's rows, spread as a row over the matrix, is read at the entry's column. -/
theorem row_of_r (i : S4096x1024.Idx) (k : Fin 2048) :
    idx_main_v4 (idx_main_v5 (idx_main_v7 i)) k = ix2 (i 1) k :=
  funext fun a => Fin.ext (by match a with | ⟨0, _⟩ => rfl | ⟨1, _⟩ => rfl)

/-- The product's left factor is x at the entry's row. -/
theorem left_factor (i : S4096x1024.Idx) (k : Fin 2048) : lidx_main_v1 i k = ix2 (i 0) k :=
  funext fun a => Fin.ext (by match a with | ⟨0, _⟩ => rfl | ⟨1, _⟩ => rfl)

/-- The product's right factor is r at the row numbered by the entry's column. -/
theorem right_factor (i : S4096x1024.Idx) (k : Fin 2048) : ridx_main_v1 i k = ix2 (i 1) k :=
  funext fun a => Fin.ext (by match a with | ⟨0, _⟩ => rfl | ⟨1, _⟩ => rfl)

/-- The reference's result is the array of scores of x's rows against r's rows. -/
theorem reference_is_scores (x0 : (⟨S4096x2048, .i32⟩ : BufTy).Contents (Elt Ideal))
    (x1 : (⟨S1024x2048, .f32⟩ : BufTy).Contents (Elt Ideal)) :
    val_main_v15 (F := Ideal) x0 x1 = Cert.Hamming.scores (B := 4096) (D := 1024) x0 x1 := by
  funext i
  rw [val_main_v15_apply, val_main_v13_apply, val_main_v11_apply, val_main_v8_apply, val_main_v10_apply,
    val_main_v6_apply, val_main_v3_apply, val_main_v2_apply, val_main_v7_apply, val_main_v5_apply, val_main_v4_apply,
    val_main_v9_apply, val_main_v1_apply, val_main_v12_apply, val_main_v14_apply,
    val_main_cst_apply, val_main_cst_0_apply, val_main_cst_1_apply, val_main_cst_2_apply, val_main_cst_3_apply]
  simp only [val_main_v0_apply, row_of_x, row_of_r, left_factor, right_factor, Ideal.hostDivf_def, Ideal.subf_def,
    Ideal.addf_def, Ideal.mulf_def, Ideal.ofBits_def, Ideal.ofBits_zero_f32, zero_add]
  rfl

end Cert.Hamming.Reference

end
-- ==== Proof.LibRows.lean ====
/-
  Layout operations and lane sums read at an index written by coordinates.

  * A three-axis array [a, b, c] taken as the matrix [a·b, c] whose row p·b + k is the array's row (p, k), and back.
  * A matrix [a, c] given a middle unit axis and repeated b times along it: entry (p, k, q) is the matrix's (p, q).
  * A matrix [a, b] given a trailing unit axis and repeated c times along it: entry (p, k, q) is the matrix's (p, k).
  * A vector [a] given a trailing unit axis, and a column [a, 1] repeated c times along it: entry (p, q) is the vector's p.
  * Over the extended reals, a sum over the middle axis of [a, b, c] at (p, q) is Σ_k of the array at (p, k, q), and a sum
    over the last axis of [a, c] at p is Σ_q of the matrix at (p, q); both from the zero accumulator.
  Every statement is generic in the extents; the row number of the flattened matrix is passed with its equation.
-/
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

variable {α : Type}

/-- [a, b, c] as the matrix [n, c], n = a·b: the matrix's row r = p·b + k is the array's row (p, k). -/
theorem flatten_rows_apply {a b c n : Nat} (x : (⟨3, ![a, b, c]⟩ : Shape).Idx → α)
    (h : (⟨3, ![a, b, c]⟩ : Shape).ShapeCasts ⟨2, ![n, c]⟩) (p : Fin a) (k : Fin b) (q : Fin c) (r : Fin n)
    (hr : r.val = p.val * b + k.val) :
    shapeCast ⟨2, ![n, c]⟩ x h (ix2 r q) = x (ix3 p k q) :=
  shapeCast_apply x h _ _ (by
    rw [Shape.rowMajor_val_three, Shape.rowMajor_val_two]
    show (p.val * b + k.val) * c + q.val = r.val * c + q.val
    rw [hr])

/-- The matrix [n, c], n = a·b, as [a, b, c]: entry (p, k, q) is the matrix's row r = p·b + k at column q. -/
theorem unflatten_rows_apply {a b c n : Nat} (x : (⟨2, ![n, c]⟩ : Shape).Idx → α)
    (h : (⟨2, ![n, c]⟩ : Shape).ShapeCasts ⟨3, ![a, b, c]⟩) (p : Fin a) (k : Fin b) (q : Fin c) (r : Fin n)
    (hr : r.val = p.val * b + k.val) :
    shapeCast ⟨3, ![a, b, c]⟩ x h (ix3 p k q) = x (ix2 r q) :=
  shapeCast_apply x h _ _ (by
    rw [Shape.rowMajor_val_two, Shape.rowMajor_val_three]
    show r.val * c + q.val = (p.val * b + k.val) * c + q.val
    rw [hr])

/-- [a, c] given a middle unit axis. -/
theorem insert_mid_apply {a c : Nat} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_two, Shape.rowMajor_val_three]
    show p.val * c + q.val = (p.val * 1 + u.val) * c + q.val
    rw [hu, Nat.mul_one, Nat.add_zero])

/-- [a, 1, c] repeated along its middle axis. -/
theorem bcast_mid_apply {a b c : Nat} (x : (⟨3, ![a, 1, c]⟩ : Shape).Idx → α)
    (h : (⟨3, ![a, 1, c]⟩ : Shape).Broadcasts ⟨3, ![a, b, c]⟩) (p : Fin a) (k : Fin b) (q : Fin c) :
    broadcastTo ⟨3, ![a, b, c]⟩ x h (ix3 p k q) = x (ix3 p (0 : Fin 1) q) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else k.val; rw [if_pos rfl]
    | ⟨2, _⟩ => by
        show q.val = if c = 1 then 0 else q.val
        have := q.isLt
        split_ifs <;> omega)

/-- [a, b] given a trailing unit axis. -/
theorem append_unit_apply {a b : Nat} (x : (⟨2, ![a, b]⟩ : Shape).Idx → α)
    (h : (⟨2, ![a, b]⟩ : Shape).ShapeCasts ⟨3, ![a, b, 1]⟩) (p : Fin a) (k : Fin b) (u : Fin 1) :
    shapeCast ⟨3, ![a, b, 1]⟩ x h (ix3 p k u) = x (ix2 p k) :=
  shapeCast_apply x h _ _ (by
    have hu : u.val = 0 := by omega
    rw [Shape.rowMajor_val_two, Shape.rowMajor_val_three]
    show p.val * b + k.val = (p.val * b + k.val) * 1 + u.val
    rw [hu, Nat.mul_one, Nat.add_zero])

/-- [a, b, 1] repeated along its last axis. -/
theorem bcast_last_apply {a b c : Nat} (x : (⟨3, ![a, b, 1]⟩ : Shape).Idx → α)
    (h : (⟨3, ![a, b, 1]⟩ : Shape).Broadcasts ⟨3, ![a, b, c]⟩) (p : Fin a) (k : Fin b) (q : Fin c) :
    broadcastTo ⟨3, ![a, b, c]⟩ x h (ix3 p k q) = x (ix3 p k (0 : Fin 1)) :=
  broadcastTo_apply x h _ _ (fun ax => match ax with
    | ⟨0, _⟩ => by
        show p.val = if a = 1 then 0 else p.val
        have := p.isLt
        split_ifs <;> omega
    | ⟨1, _⟩ => by
        show k.val = if b = 1 then 0 else k.val
        have := k.isLt
        split_ifs <;> omega
    | ⟨2, _⟩ => by show 0 = if (1 : Nat) = 1 then 0 else q.val; rw [if_pos rfl])

/-- A vector [a] as the column [a, 1]. -/
theorem col_cast_apply {a : Nat} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column [a, 1] repeated along its unit axis. -/
theorem bcast_col_apply {a c : Nat} (x : (⟨2, ![a, 1]⟩ : Shape).Idx → α)
    (h : (⟨2, ![a, 1]⟩ : Shape).Broadcasts ⟨2, ![a, c]⟩) (p : Fin a) (q : Fin c) :
    broadcastTo ⟨2, ![a, c]⟩ x h (ix2 p q) = x (ix2 p (0 : Fin 1)) :=
  broadcastTo_apply x h _ _ (fun ax => match ax with
    | ⟨0, _⟩ => by
        show p.val = if a = 1 then 0 else p.val
        have := p.isLt
        split_ifs <;> omega
    | ⟨1, _⟩ => by show 0 = if (1 : Nat) = 1 then 0 else q.val; rw [if_pos rfl])

/-- The sum over the middle axis of [a, b, c], from the zero accumulator, at (p, q). -/
theorem lane_sum_mid_apply {a b c : Nat} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (p : Fin a) (q : Fin c) :
    multiReduction .add [1] ⟨2, ![a, c]⟩ src 0x00000000#32 h hφ hacc (ix2 p q) = ∑ k : Fin b, src (ix3 p k q) := by
  refine (Ideal.multiReduction_add_single src 0x00000000#32 h hφ hacc (ix2 p q)).trans ?_
  exact Finset.sum_congr rfl fun k _ => congrArg src (funext fun ax => Fin.ext (by
    match ax with
    | ⟨0, _⟩ => rfl
    | ⟨1, _⟩ => rfl
    | ⟨2, _⟩ => rfl))

/-- The sum over the last axis of [a, c], from the zero accumulator, at p. -/
theorem lane_sum_last_apply {a c : Nat} (src : FVec Ideal ⟨2, ![a, c]⟩ .f32)
    (h : (⟨2, ![a, c]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ q : Fin c, src (ix2 p q) := by
  refine (Ideal.multiReduction_add_single src 0x00000000#32 h hφ hacc (ix1 p)).trans ?_
  exact Finset.sum_congr rfl fun q _ => congrArg src (funext fun ax => Fin.ext (by
    match ax with
    | ⟨0, _⟩ => rfl
    | ⟨1, _⟩ => rfl))

end Cert.LibRows

end
-- ==== Proof.LibMatmulNT.lean ====
/-
  A matrix product whose right operand is contracted on its last axis, read at an index, over the extended reals.

  For the dimension numbers of an M×K by N×K product (contract the left operand's axis 1 with the right operand's
  axis 1, no batch axes: the product of the left matrix with the transpose of the right one), the product accumulated
  into the zero matrix has, at row `p` and column `q`, the entry  Σ_{k < K} lhs(p, k) · rhs(q, k):  the left index
  keeps the row and takes the contraction coordinate as its column, the right index takes the output's column as
  its row and the contraction coordinate as its column. Generic in M, K, N and in the operands' formats.
-/
import Idealize.ShloMosaic.PureOps.Ideal.Laws
import Idealize.ShloMosaic.Lib.ValueIdx

noncomputable section

open scoped BigOperators

namespace Cert.LibMatmulNT

open Idealize.ShloMosaic Idealize.ShloMosaic.ValueIdx

variable {M K N : Nat}

/-- The left index keeps the output's row. -/
theorem nt_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton_self _)]
  rfl

/-- The left index's column is the contraction coordinate. -/
theorem nt_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right index's row is the output's column. -/
theorem nt_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton_self _)]
  rfl

/-- The right index's column is the contraction coordinate. -/
theorem nt_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- THE PRODUCT AT AN ENTRY: a matrix product contracting both operands' last axes, accumulated into the zero matrix,
    is at `(p, q)` the sum over the contracted axis of the operands' products. The dimension numbers are passed as any
    record equal to `DotDims.transposedRhs M K N` (a printed record with the same six lists is, by `rfl`). -/
theorem matmul_nt_zero_apply {φ₁ φ₂ : FTy} (D : DotDims ⟨2, ![M, K]⟩ ⟨2, ![N, K]⟩ ⟨2, ![M, N]⟩)
    (hD : D = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 q k) := by
  subst hD
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact nt_lhs_row _ _
      | ⟨1, _⟩ => exact (nt_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact nt_rhs_row _ _
      | ⟨1, _⟩ => exact (nt_rhs_col _ _).trans hk)
  rw [el, er]

end Cert.LibMatmulNT

end
-- ==== Proof.BodyIsSpec.lean ====
/-
  The kernel's body computes the scores of its block.

  The body loads a block of 512 rows of x and all 1024 rows of r. Entry (p, q) of what it stores is
      ((Σ_k x(p,k) + Σ_k r(q,k)) − 2 · Σ_k x(p,k)·r(q,k) − 1024) / s:
  the row sums of x become a column and are repeated along the columns, the row sums of r become a row and are
  repeated along the rows, and the product contracts the last axes of both operands (the operands are first
  re-formatted to a narrower float format, which changes nothing on the extended reals) into a zero accumulator.
  That is the score of row p of the block against row q of r.
-/
import proofs.«110299_j45251775430700_1_alg».proof.Proof.Gen.KernelIdeal.Skeleton
import proofs.«110299_j45251775430700_1_alg».proof.Proof.Spec
import proofs.«110299_j45251775430700_1_alg».proof.Proof.LibRows
import proofs.«110299_j45251775430700_1_alg».proof.Proof.LibMatmulNT
import Idealize.ShloMosaic.Lib.ValueLayout

noncomputable section

open scoped BigOperators

namespace Cert.Hamming.Body

open Cert.KernelIdeal Cert.KernelIdeal.Facts₀ Idealize.ShloMosaic Idealize.ShloMosaic.ValueIdx
open Cert.Hamming

/-- The row sums of the block of x, as a column repeated along the columns: at (p, q), the sum of row p. -/
theorem x_sums_at (x0 : Vec Ideal S512x2048 .i32) (p : Fin 512) (q : Fin 1024) :
    broadcastTo S512x1024 (shapeCast S512x1 (multiReduction (F := Ideal) .add [1] S512
        (sitofp .f32 x0 : FVec Ideal S512x2048 .f32) 0x00000000#32 reduces_S512x2048_S512 (.inl rfl) rfl)
        shapeCasts_S512_S512x1) broadcasts_S512x1_S512x1024 (ix2 p q)
      = ∑ k : Fin 2048, asReal (x0 (ix2 p k)) := by
  rw [Cert.LibRows.bcast_col_apply, Cert.LibRows.col_cast_apply]
  exact (Cert.LibRows.lane_sum_last_apply (a := 512) (c := 2048) (sitofp .f32 x0 : FVec Ideal S512x2048 .f32)
    reduces_S512x2048_S512 (.inl rfl) rfl p).trans rfl

/-- The row sums of r, as a row repeated along the rows: at (p, q), the sum of row q of r. -/
theorem r_sums_at (x1 : Vec Ideal S1024x2048 .f32) (p : Fin 512) (q : Fin 1024) :
    broadcastTo S512x1024 (shapeCast S1x1024 (multiReduction (F := Ideal) .add [1] S1024
        (x1 : FVec Ideal S1024x2048 .f32) 0x00000000#32 reduces_S1024x2048_S1024 (.inl rfl) rfl)
        shapeCasts_S1024_S1x1024) broadcasts_S1x1024_S512x1024 (ix2 p q)
      = ∑ k : Fin 2048, x1 (ix2 q k) := by
  rw [broadcastTo_1b_ab_apply, shapeCast_a_1a_apply]
  exact Cert.LibRows.lane_sum_last_apply (a := 1024) (c := 2048) (x1 : FVec Ideal S1024x2048 .f32)
    reduces_S1024x2048_S1024 (.inl rfl) rfl q

/-- The product of the block of x with r, both contracted on their last axis: at (p, q), Σ_k x(p,k)·r(q,k). -/
theorem products_at (x0 : Vec Ideal S512x2048 .i32) (x1 : Vec Ideal S1024x2048 .f32) (p : Fin 512) (q : Fin 1024) :
    matmul (F := Ideal) dot_S512x2048_S1024x2048_S512x1024_1_1_0_0_n_n none
        (truncf .bf16 (sitofp .f32 x0 : FVec Ideal S512x2048 .f32) bitsLt_bf16_f32)
        (truncf .bf16 (x1 : FVec Ideal S1024x2048 .f32) bitsLt_bf16_f32)
        (constant S512x1024 .f32 0x00000000#32) (ix2 p q)
      = ∑ k : Fin 2048, asReal (x0 (ix2 p k)) * x1 (ix2 q k) :=
  (Cert.LibMatmulNT.matmul_nt_zero_apply (M := 512) (K := 2048) (N := 1024)
    dot_S512x2048_S1024x2048_S512x1024_1_1_0_0_n_n rfl none _ _ p q).trans rfl

/-- What the body stores, at (p, q): the score of row p of its block of x against row q of r. -/
theorem body_is_score (x0 : Vec Ideal S512x2048 .i32) (x1 : Vec Ideal S1024x2048 .f32) (p : Fin 512) (q : Fin 1024) :
    Gen.k0_pay1 (F := Ideal) x0 x1 (ix2 p q)
      = score (∑ k : Fin 2048, asReal (x0 (ix2 p k))) (∑ k : Fin 2048, x1 (ix2 q k))
          (∑ k : Fin 2048, asReal (x0 (ix2 p k)) * x1 (ix2 q k)) := by
  unfold Gen.k0_pay1
  simp only [divf_apply, subf_apply, addf_apply, mulf_apply, broadcast_apply]
  rw [x_sums_at, r_sums_at, products_at]
  rfl

/-- What the body stores is the array of scores of its block of x against r. -/
theorem body_is_scores (x0 : Vec Ideal S512x2048 .i32) (x1 : Vec Ideal S1024x2048 .f32) :
    Gen.k0_pay1 (F := Ideal) x0 x1 = scores (B := 512) (D := 1024) x0 x1 := by
  funext j
  obtain ⟨p, q, rfl⟩ : ∃ (p : Fin 512) (q : Fin 1024), j = ix2 p q := ⟨j 0, j 1, eq_ix2 j⟩
  exact body_is_score x0 x1 p q

end Cert.Hamming.Body

end
-- ==== Proof.Blocks.lean ====
/-
  From the blocks to the array: after the run the kernel's result is the array of scores.

  The grid has 8 points. At point t the body is given rows 512·t … 512·t + 511 of x (all 2048 columns) and the whole
  of r, and what it stores is written back as rows 512·t … 512·t + 511 (all 1024 columns) of the result. The stored
  block is the array of scores of that block of x against r; a score depends only on its own row of x and its own
  row of r, and row p of the block of x is row 512·t + p of x, so the block is the corresponding block of the scores
  of the whole of x against r. Row b of the result lies in the block of point b / 512, so the 8 blocks cover the
  result, and the result is the array of scores.
-/
import proofs.«110299_j45251775430700_1_alg».proof.Proof.Gen.KernelIdeal.Value
import proofs.«110299_j45251775430700_1_alg».proof.Proof.BodyIsSpec

set_option maxRecDepth 16384

noncomputable section

namespace Cert.Hamming.Blocks

open Cert.KernelIdeal Cert.KernelIdeal.Gen Cert.KernelIdeal.Value Idealize.ShloMosaic Idealize.ShloMosaic.TcCoe Idealize.SL.Sem
open Idealize.ShloMosaic.ValueIdx Cert.Hamming
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The block index maps, over the 8 grid points: the block of x has the output block's row number and column
    number 0, the block of r is always block (0, 0), and the output block of point t is block (t, 0). -/
theorem block_numbers : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the scores of the whole of x against r. -/
theorem flushed_is_block (c : Dev nD) (t : Fin cfg0.N) :
    (dats m 0 c).flushed 2 t = ((cfg0.win 2).blk t).view.read (Elt Ideal)
      (scores (B := 4096) (D := 1024) (V m c main_arg0) (V m c main_arg1)) := by
  rw [flushed2]
  unfold out0_2
  rw [View.canon_unit_zero origin]
  simp only [View.ld_unit_zero (S := S512x2048) origin, View.ld_unit_zero (S := S1024x2048) origin]
  rw [Cert.Hamming.Body.body_is_scores]
  obtain ⟨e0, e1, e2, e3, e4, e5⟩ := block_numbers t
  funext j
  show scores (B := 512) (D := 1024) (iblk m c 0 t) (iblk m c 1 t) j
    = scores (B := 4096) (D := 1024) (V m c main_arg0) (V m c main_arg1) (((cfg0.win 2).blk t).view.emb j)
  refine scores_eq_of_rows _ _ _ _ j _ (fun k => ?_) (fun k => ?_)
  · show V m c main_arg0 (((cfg0.win 0).blk t).view.emb (ix2 (j 0) k))
      = V m c main_arg0 (ix2 ((((cfg0.win 2).blk t).view.emb j) 0) k)
    refine congrArg (V m c main_arg0) (funext fun a => Fin.ext ?_)
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2048 + 1 * k.val = k.val
      omega
  · show V m c main_arg1 (((cfg0.win 1).blk t).view.emb (ix2 (j 1) k))
      = V m c main_arg1 (ix2 ((((cfg0.win 2).blk t).view.emb j) 1) k)
    refine congrArg (V m c main_arg1) (funext fun a => Fin.ext ?_)
    match a with
    | ⟨0, _⟩ =>
      show win0_1.index t (0 : Fin 2) * 1024 + 1 * (j 1).val = win0_2.index t (1 : Fin 2) * 1024 + 1 * (j 1).val
      omega
    | ⟨1, _⟩ =>
      show win0_1.index t (1 : Fin 2) * 2048 + 1 * k.val = k.val
      omega

/-- An index of the result is in point t's block iff each coordinate is in the block's range on its axis. -/
theorem mem_block (t : Fin cfg0.N) (i : S4096x1024.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v0).slice (win0_2.rect t)).set ↔ _
  rw [View.set_slice_whole, Rect.mem_set_unit]
  exact Iff.rfl

/-- Every index of the result is in the block of some point: row b is in the block of point b / 512. -/
theorem covered (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  have hN : grid0.N = 8 := N_0
  obtain ⟨t, ht⟩ : ∃ t : Fin cfg0.N, t.val = (i 0).val / 512 :=
    ⟨⟨(i 0).val / 512, by show (i 0).val / 512 < grid0.N; rw [hN]; omega⟩, rfl⟩
  obtain ⟨-, -, -, -, e4, e5⟩ := block_numbers t
  refine ⟨t, flush0_2 t, ?_⟩
  rw [mem_block]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- The result array after the run is the array of scores of x against r. -/
theorem final (c : Dev nD) : (dats m 0 c).arrAt 2 cfg0.N
    = scores (B := 4096) (D := 1024) (m ((c : Thread nD τ).loc main_arg0)) (m ((c : Thread nD τ).loc main_arg1)) :=
  (dats m 0 c).arrAt_eq_of_cover 2 _ (fun t _ => flushed_is_block m c t) covered

/-- Every weakly fair execution of the kernel program terminates with the result at the array of scores of its
    arguments, the arguments unchanged. -/
theorem run : θ_run defs (onTc (τ := τ) (main (F := Ideal))) ⟨m, fun _ => 0, ρ⟩ fun r => ∀ c : Dev nD,
      r.2.mem ((c : Thread nD τ).loc main_v0)
        = scores (B := 4096) (D := 1024) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Hamming.Blocks

end
-- ==== Proof.lean ====
/-
  The kernel and its reference compute the same normalized Hamming scores.

  Both programs take x, 4096 rows of 2048 integers, and r, 1024 rows of 2048 floats, and return, for every row b of x
  and every row d of r,
      ((Σ_k x(b,k) + Σ_k r(d,k)) − 2 · Σ_k x(b,k)·r(d,k) − 1024) / s,
  with the same three constants (2, 1024 and the scale s, each the same single-precision word in both programs).
  For rows with entries in {0, 1} the numerator's first three terms count the places where the two rows differ.

  The reference computes the two families of row sums and one matrix product contracting the last axes of both
  operands over the whole arrays. The kernel computes them 512 rows of x at a time over a grid of 8 points, each
  time against the whole of r, and writes 512 rows of the result back. Over the extended reals the two agree
  entry by entry, with no condition on the inputs: the same operations are applied in the same order, a change of
  float format is the identity, a sum may be taken in any order, and the zero the reference's sums start from adds
  nothing. A score depends on one row of x and one row of r only, so the kernel's 8 blocks are the 8 blocks of rows
  of the reference's result, and they cover it.

  The three frame claims are the generated frame runs (the reference's is its generated run with the result
  dropped). The kernel's idealization rewrote no operation, so there is nothing to preserve. The value claim sets
  the kernel's run, read as the array of scores, beside the reference's run, read as the same array.
-/
import proofs.«110299_j45251775430700_1_alg».proof.Defs
import proofs.«110299_j45251775430700_1_alg».proof.Proof.Gen.Kernel
import proofs.«110299_j45251775430700_1_alg».proof.Proof.Gen.Kernel.Skeleton
import proofs.«110299_j45251775430700_1_alg».proof.Proof.Gen.Kernel.Launch
import proofs.«110299_j45251775430700_1_alg».proof.Proof.Gen.Kernel.Points
import proofs.«110299_j45251775430700_1_alg».proof.Proof.Gen.Kernel.Frame
import proofs.«110299_j45251775430700_1_alg».proof.Proof.Gen.KernelIdeal
import proofs.«110299_j45251775430700_1_alg».proof.Proof.Gen.KernelIdeal.Skeleton
import proofs.«110299_j45251775430700_1_alg».proof.Proof.Gen.KernelIdeal.Launch
import proofs.«110299_j45251775430700_1_alg».proof.Proof.Gen.KernelIdeal.Points
import proofs.«110299_j45251775430700_1_alg».proof.Proof.Gen.KernelIdeal.Frame
import proofs.«110299_j45251775430700_1_alg».proof.Proof.Gen.ReferenceIdeal
import proofs.«110299_j45251775430700_1_alg».proof.Proof.Gen.Pre_finite_inputs
import proofs.«110299_j45251775430700_1_alg».proof.Proof.Gen.KernelIdeal.Value
import proofs.«110299_j45251775430700_1_alg».proof.Proof.Gen.ReferenceIdeal.Run
import proofs.«110299_j45251775430700_1_alg».proof.Proof.Gen.ReferenceIdeal.Read
import proofs.«110299_j45251775430700_1_alg».proof.Proof.RefIsSpec
import proofs.«110299_j45251775430700_1_alg».proof.Proof.Blocks
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on x and r, both programs end with the array of scores of x against r. -/
theorem algebraic : Cert.algebraic_KernelIdeal_ReferenceIdeal := by
  intro m ρ m' ρ' _ hagree
  refine ⟨_, Cert.Hamming.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.Hamming.Reference.reference_is_scores, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
